-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S1024x1024 .f32) (main_arg2 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S2048x1024 : Shape := ⟨2, ![2048, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  inb_S512x1024_S512x1024_0_0 : ∀ a, (![0, 0] : Fin 2 → Nat) a + S512x1024.size a ≤ S512x1024.size a
  h_S512x1024 : 0 < S512x1024.numel
  broadcasts_S1x1024_S512x1024 : S1x1024.Broadcasts S512x1024
  inb_S2048x1024_S512x1024_0_0 : ∀ a, (![0, 0] : Fin 2 → Nat) a + S512x1024.size a ≤ S2048x1024.size a
  inb_S2048x1024_S512x1024_512_0 : ∀ a, (![512, 0] : Fin 2 → Nat) a + S512x1024.size a ≤ S2048x1024.size a
  inb_S2048x1024_S512x1024_1024_0 : ∀ a, (![1024, 0] : Fin 2 → Nat) a + S512x1024.size a ≤ S2048x1024.size a
  inb_S2048x1024_S512x1024_1536_0 : ∀ a, (![1536, 0] : Fin 2 → Nat) a + S512x1024.size a ≤ S2048x1024.size a
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S8192x1024.size a
  hwx0_6 : ∀ i : grid0.Coords, EltTy.bits .f32 = 32 ∨ (Rect.block (s := S8192x1024) S2048x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.KBody.lean ====
/-
  The kernel's body on its staging buffers.

  One call of the body reads four row blocks x₀ … x₃ of the input (512 rows of 1024 each), the whole weight
  matrix w (1024 by 1024) and the bias row b (1 by 1024), and stores, into rows [512·j, 512·j + 512) of its
  2048-row output buffer, the block  x_j · w + b  (the bias row repeated down the rows), j = 0 … 3. Before each
  store it also loads the rows it is about to overwrite; that value is not used. The four stores tile the
  output buffer, so after the body the buffer is a function of the six values read alone: the overlay of the
  four stored blocks, whatever it held before.
-/
import proofs.«138835_g2000102738160024_pallasbulk_449_4_alg».proof.Proof.Gen.Kernel.Launch
import proofs.«138835_g2000102738160024_pallasbulk_449_4_alg».proof.Proof.Gen.Kernel.Skeleton
import proofs.«138835_g2000102738160024_pallasbulk_449_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole 512 by 1024 input block. -/
abbrev rX : Rect S512x1024 := Rect.unit (s := S512x1024) ![0, 0] S512x1024.size inb_S512x1024_S512x1024_0_0
/-- The whole weight matrix. -/
abbrev rW : Rect S1024x1024 := Rect.unit (s := S1024x1024) ![0, 0] S1024x1024.size inb_S1024x1024_S1024x1024_0_0
/-- The whole bias row. -/
abbrev rB : Rect S1x1024 := Rect.unit (s := S1x1024) ![0, 0] S1x1024.size inb_S1x1024_S1x1024_0_0
/-- Rows [0, 512) of the output buffer, -/
abbrev rO0 : Rect S2048x1024 := Rect.unit (s := S2048x1024) ![0, 0] S512x1024.size inb_S2048x1024_S512x1024_0_0
/-- rows [512, 1024), -/
abbrev rO1 : Rect S2048x1024 := Rect.unit (s := S2048x1024) ![512, 0] S512x1024.size inb_S2048x1024_S512x1024_512_0
/-- rows [1024, 1536), -/
abbrev rO2 : Rect S2048x1024 := Rect.unit (s := S2048x1024) ![1024, 0] S512x1024.size inb_S2048x1024_S512x1024_1024_0
/-- rows [1536, 2048). -/
abbrev rO3 : Rect S2048x1024 := Rect.unit (s := S2048x1024) ![1536, 0] S512x1024.size inb_S2048x1024_S512x1024_1536_0

/-! ## What the body leaves in the output buffer -/

/-- The output buffer after the body, from the six values read: its four stores as pieces, the last store first. -/
def outBuf (x0 x1 x2 x3 : Vec F S512x1024 .f32) (w : Vec F S1024x1024 .bf16) (b : Vec F S1x1024 .f32) : Vec F S2048x1024 .f32 :=
  View.canon [⟨rO3, k0_pay5 (View.ld w rW) (View.ld b rB) (View.ld x3 rX)⟩,
    ⟨rO2, k0_pay4 (View.ld w rW) (View.ld b rB) (View.ld x2 rX)⟩,
    ⟨rO1, k0_pay3 (View.ld w rW) (View.ld b rB) (View.ld x1 rX)⟩,
    ⟨rO0, k0_pay2 (View.ld w rW) (View.ld b rB) (View.ld x0 rX)⟩]

/-- Four blocks of 512 rows tile the 2048 rows: every index of the output buffer lies in one of the stores. -/
theorem cover_out (p0 p1 p2 p3 : Vec F S512x1024 .f32) (y : S2048x1024.Idx) :
    ∃ pc ∈ ([⟨rO3, p3⟩, ⟨rO2, p2⟩, ⟨rO1, p1⟩, ⟨rO0, p0⟩] : List (View.Piece (Elt F) S2048x1024 .f32)), y ∈ pc.1.set :=
  View.cover_of_tiled [⟨rO3, p3⟩, ⟨rO2, p2⟩, ⟨rO1, p1⟩, ⟨rO0, p0⟩] S512x1024.size (by rfl) y

/-! ## The body's triple -/

set_option maxHeartbeats 1000000 in
/-- The body on whole staging memrefs, the six inputs' at read contents and the output's at anything, runs to the
    continuation holding the inputs' as they were and the output's at `outBuf` of the inputs'. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole)
    (x0 x1 x2 x3 : Vec F S512x1024 .f32) (w : Vec F S1024x1024 .bf16) (b : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w ∗ owns (c : Thread nD τ) arg6 fullShare b
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w ∗ owns (c : Thread nD τ) arg6 fullShare b
            ∗ owns (c : Thread nD τ) arg7 fullShare (outBuf x0 x1 x2 x3 w b)) -∗ K ⟨⟩))
      ⊢ wp frame (wpE (defs₀ (F := F)) Variants.none c none) E
          (cc0__fused_affine_kernel i arg1 harg1 arg2 harg2 arg3 harg3 arg4 harg4 arg5 harg5 arg6 harg6 arg7 harg7) K := by
  simp only [cc0__fused_affine_kernel_eq_skeleton]; unfold cc0__fused_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _ _ _)

end Cert.Kernel.Hand

end
-- ==== Proof.LibFrameShared.lean ====
/-
  A frame run for a one-region pipeline whose windows may hand ONE array to several input windows.

  The region is entered from the class invariant (the scoped buffers that are no staging buffer, each at
  some contents), the certificate's own invariant `Φ` is tracked from point to point (what the body keeps
  in its scratch), and after the last point the scoped rest is given back. How the buffers behind the
  arrays, each whole at the full share, are dealt among the windows on them is the caller's (`hsplit`):
  an array read through two input windows is split into two half shares. The conclusion is the frame
  post: every window's array at what the proof data compute after the last write-back, every other
  unscoped buffer at its contents at the region's entry.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run with a tracked invariant, the windows' arrays not assumed distinct. -/
theorem θ_run_frame_track_shared
    (cfgs : P → Cfg sig Λ₀) (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) ⟨m, fun _ => 0, g⟩
      (FramePost cfgs dats p V) := by
  classical
  exact θ_run_region_noSem_shared cfgs dats () hinj p hw emb₁ defs₀ 𝒱₀ m g main hbody hne harr hstage howed
    (u₀ := Rounds.initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => (show _ ⊢ (scopedRest (cfgs p).spec c : sProp 𝕄) from by iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.LibQuarterShares.lean ====
/-
  A buffer dealt among four readers.

  A share of a set of a buffer's elements splits into its left and right halves, each again a share that
  lets its holder read and no one write; halving both halves gives four quarters. Holding the elements at
  a share is therefore holding them four times over, once at each quarter, at the same contents: this is how
  one array that four readers fetch from at once is handed to them, each reader its own quarter.
-/
import Idealize.ShloMosaic.Rules.PointsTo

noncomputable section

namespace Idealize.ShloMosaic

open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

/-- Elements held at a share are held at its left half and at its right half. -/
theorem pointsTo_halves {ℓ : Loc nD τ sig} (I : Finset (Idx ℓ)) (q : PosShare TreeShare) (f : Buf Val ℓ) :
    (ℓ ↦[I]{q} f : sProp 𝕄) ⊢ iprop((ℓ ↦[I]{q.left} f) ∗ ℓ ↦[I]{q.right} f) :=
  (pointsTo_share (PosShare.mem_left_op_right q)).1

/-- Elements held at a share are held at each of its four quarters. -/
theorem pointsTo_quarters {ℓ : Loc nD τ sig} (I : Finset (Idx ℓ)) (q : PosShare TreeShare) (f : Buf Val ℓ) :
    (ℓ ↦[I]{q} f : sProp 𝕄)
      ⊢ iprop((ℓ ↦[I]{q.left.left} f) ∗ (ℓ ↦[I]{q.left.right} f) ∗ (ℓ ↦[I]{q.right.left} f) ∗ ℓ ↦[I]{q.right.right} f) := by
  iintro H
  ihave H2 := (pointsTo_halves I q f) $$ H
  icases H2 with ⟨HL, HR⟩
  ihave HL2 := (pointsTo_halves I q.left f) $$ HL
  icases HL2 with ⟨HLL, HLR⟩
  ihave HR2 := (pointsTo_halves I q.right f) $$ HR
  icases HR2 with ⟨HRL, HRR⟩
  isplitl [HLL]; · iexact HLL
  isplitl [HLR]; · iexact HLR
  isplitl [HRL]; · iexact HRL
  iexact HRR

end Idealize.ShloMosaic

end
-- ==== Proof.KRun.lean ====
/-
  The kernel's run: its one pipelined region entered after the weights are recast, the body run at each of
  the four grid points, the arguments left as they were.

  The region stages seven windows. Windows 0 to 3 are four consecutive 512-row blocks of ONE array, the input x
  (point t reads rows [2048·t + 512·j, 2048·t + 512·j + 512) through window j); window 4 is the recast weight
  matrix whole, window 5 the bias row whole, window 6 the 2048-row block t of the result, written back at every
  point. Since the input is read through four windows at once, its buffer is dealt among them in four quarter
  shares; every other array is held whole. The body keeps nothing between points, so the invariant carried from
  point to point is only the core's scoped buffers that are no staging buffer.
-/
import proofs.«138835_g2000102738160024_pallasbulk_449_4_alg».proof.Proof.KBody
import proofs.«138835_g2000102738160024_pallasbulk_449_4_alg».proof.Proof.LibFrameShared
import proofs.«138835_g2000102738160024_pallasbulk_449_4_alg».proof.Proof.LibQuarterShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the one host operation, which
    recasts the weight matrix into a buffer of its own. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The recast writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved), for any proof data whose array is the region-entry one and whose body
    leaves the block in place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core `c`: the arrays as the region finds them; after the body at point `t`
    each input's buffer at its block and the output's at `outBuf` of the six input blocks; the invariant the scoped
    rest; nothing owed; the input array's four windows at the four quarters of the full share, the others whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBuf (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBuf (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays dealt at the region's entry -/

/-- The distinct buffers behind the windows' arrays, one by one: the input, the recast weights, the bias, the result. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v0) ↦{fullShare} V' main_v0)
          ∗ (((c : Thread nD τ).loc main_arg2) ↦{fullShare} V' main_arg2) ∗ (((c : Thread nD τ).loc main_v1) ↦{fullShare} V' main_v1)) := by
  unfold Pipeline.arrBufs
  exact bigSep_eq_bigSepL_of_eq [main_arg0, main_v0, main_arg2, main_v1] (by decide) (by decide) _

/-- Window `w`'s term of the proof data's arrays, at the region's entry, is its buffer whole at the window's share. -/
theorem arr_term (c : Dev nD) (w : Fin cfg0.W) (q : PosShare TreeShare) (hq : (dats m 0 c).share w = q) :
    (View.loc c.tc (cfg0.win w).arr.view ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq]; rfl

/-- The buffers behind the arrays, each whole at the full share, make the proof data's arrays at entry: the input's
    buffer is dealt in quarters among its four windows, the other three go to their one window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  dsimp only
  rw [arr_term m c 0 fullShare.left.left rfl, arr_term m c 1 fullShare.left.right rfl, arr_term m c 2 fullShare.right.left rfl,
    arr_term m c 3 fullShare.right.right rfl, arr_term m c 4 fullShare rfl, arr_term m c 5 fullShare rfl, arr_term m c 6 fullShare rfl]
  refine (sep_mono (pointsTo_quarters Finset.univ fullShare (V m c main_arg0)) .rfl).trans ?_
  iintro ⟨⟨Ha, Hb, Hc, Hd⟩, Hv0, H2, Hv1⟩
  isplitl [Ha]; · iexact Ha
  isplitl [Hb]; · iexact Hb
  isplitl [Hc]; · iexact Hc
  isplitl [Hd]; · iexact Hd
  isplitl [Hv0]; · iexact Hv0
  isplitl [H2]; · iexact H2
  iexact Hv1

/-! ## The run and the frame -/

set_option backward.isDefEq.respectTransparency.types false in
/-- For any float values, from any memory with zero counters: every weakly fair execution of the program terminates,
    and every final state has every array of the pipeline at what the write-backs compute from the proof data and every
    other unscoped buffer as the region found it. The invariant is the scoped rest itself, taken and given back as it is. -/
theorem run_main : θ_run defs (onTc (τ := τ) (main (F := F))) ⟨m, fun _ => 0, ρ⟩ (Pipeline.FramePost cfgs (dats m) 0 (V m)) :=
  Pipeline.θ_run_frame_track_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := fun c => BI.Entails.refl _) (hout := fun c => BI.Entails.refl _)

/-- The three arguments end as launched: the input and the bias are arrays of input windows, never written; the weight
    matrix is no window's array (the kernel stages its recast copy) and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 5).trans (((dats m 0 c).arrAt_in 5 rfl _).trans ((A_eq m c 5).trans (V_main_arg2 m c)))⟩) (run_main m ρ)

end Cert.Kernel.Hand

end
-- ==== Proof.KiBody.lean ====
/-
  The kernel's body on its staging buffers.

  One call of the body reads four row blocks x₀ … x₃ of the input (512 rows of 1024 each), the whole weight
  matrix w (1024 by 1024) and the bias row b (1 by 1024), and stores, into rows [512·j, 512·j + 512) of its
  2048-row output buffer, the block  x_j · w + b  (the bias row repeated down the rows), j = 0 … 3. Before each
  store it also loads the rows it is about to overwrite; that value is not used. The four stores tile the
  output buffer, so after the body the buffer is a function of the six values read alone: the overlay of the
  four stored blocks, whatever it held before.
-/
import proofs.«138835_g2000102738160024_pallasbulk_449_4_alg».proof.Proof.Gen.KernelIdeal.Launch
import proofs.«138835_g2000102738160024_pallasbulk_449_4_alg».proof.Proof.Gen.KernelIdeal.Skeleton
import proofs.«138835_g2000102738160024_pallasbulk_449_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole 512 by 1024 input block. -/
abbrev rX : Rect S512x1024 := Rect.unit (s := S512x1024) ![0, 0] S512x1024.size inb_S512x1024_S512x1024_0_0
/-- The whole weight matrix. -/
abbrev rW : Rect S1024x1024 := Rect.unit (s := S1024x1024) ![0, 0] S1024x1024.size inb_S1024x1024_S1024x1024_0_0
/-- The whole bias row. -/
abbrev rB : Rect S1x1024 := Rect.unit (s := S1x1024) ![0, 0] S1x1024.size inb_S1x1024_S1x1024_0_0
/-- Rows [0, 512) of the output buffer, -/
abbrev rO0 : Rect S2048x1024 := Rect.unit (s := S2048x1024) ![0, 0] S512x1024.size inb_S2048x1024_S512x1024_0_0
/-- rows [512, 1024), -/
abbrev rO1 : Rect S2048x1024 := Rect.unit (s := S2048x1024) ![512, 0] S512x1024.size inb_S2048x1024_S512x1024_512_0
/-- rows [1024, 1536), -/
abbrev rO2 : Rect S2048x1024 := Rect.unit (s := S2048x1024) ![1024, 0] S512x1024.size inb_S2048x1024_S512x1024_1024_0
/-- rows [1536, 2048). -/
abbrev rO3 : Rect S2048x1024 := Rect.unit (s := S2048x1024) ![1536, 0] S512x1024.size inb_S2048x1024_S512x1024_1536_0

/-! ## What the body leaves in the output buffer -/

/-- The output buffer after the body, from the six values read: its four stores as pieces, the last store first. -/
def outBuf (x0 x1 x2 x3 : Vec F S512x1024 .f32) (w : Vec F S1024x1024 .bf16) (b : Vec F S1x1024 .f32) : Vec F S2048x1024 .f32 :=
  View.canon [⟨rO3, k0_pay5 (View.ld w rW) (View.ld b rB) (View.ld x3 rX)⟩,
    ⟨rO2, k0_pay4 (View.ld w rW) (View.ld b rB) (View.ld x2 rX)⟩,
    ⟨rO1, k0_pay3 (View.ld w rW) (View.ld b rB) (View.ld x1 rX)⟩,
    ⟨rO0, k0_pay2 (View.ld w rW) (View.ld b rB) (View.ld x0 rX)⟩]

/-- Four blocks of 512 rows tile the 2048 rows: every index of the output buffer lies in one of the stores. -/
theorem cover_out (p0 p1 p2 p3 : Vec F S512x1024 .f32) (y : S2048x1024.Idx) :
    ∃ pc ∈ ([⟨rO3, p3⟩, ⟨rO2, p2⟩, ⟨rO1, p1⟩, ⟨rO0, p0⟩] : List (View.Piece (Elt F) S2048x1024 .f32)), y ∈ pc.1.set :=
  View.cover_of_tiled [⟨rO3, p3⟩, ⟨rO2, p2⟩, ⟨rO1, p1⟩, ⟨rO0, p0⟩] S512x1024.size (by rfl) y

/-! ## The body's triple -/

set_option maxHeartbeats 1000000 in
/-- The body on whole staging memrefs, the six inputs' at read contents and the output's at anything, runs to the
    continuation holding the inputs' as they were and the output's at `outBuf` of the inputs'. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S2048x1024 .f32) (harg7 : arg7.IsWhole)
    (x0 x1 x2 x3 : Vec F S512x1024 .f32) (w : Vec F S1024x1024 .bf16) (b : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w ∗ owns (c : Thread nD τ) arg6 fullShare b
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w ∗ owns (c : Thread nD τ) arg6 fullShare b
            ∗ owns (c : Thread nD τ) arg7 fullShare (outBuf x0 x1 x2 x3 w b)) -∗ K ⟨⟩))
      ⊢ wp frame (wpE (defs₀ (F := F)) Variants.none c none) E
          (cc0__fused_affine_kernel i arg1 harg1 arg2 harg2 arg3 harg3 arg4 harg4 arg5 harg5 arg6 harg6 arg7 harg7) K := by
  simp only [cc0__fused_affine_kernel_eq_skeleton]; unfold cc0__fused_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _ _ _)

end Cert.KernelIdeal.Hand

end
-- ==== Proof.KiRun.lean ====
/-
  The kernel's run: its one pipelined region entered after the weights are recast, the body run at each of
  the four grid points, the arguments left as they were.

  The region stages seven windows. Windows 0 to 3 are four consecutive 512-row blocks of ONE array, the input x
  (point t reads rows [2048·t + 512·j, 2048·t + 512·j + 512) through window j); window 4 is the recast weight
  matrix whole, window 5 the bias row whole, window 6 the 2048-row block t of the result, written back at every
  point. Since the input is read through four windows at once, its buffer is dealt among them in four quarter
  shares; every other array is held whole. The body keeps nothing between points, so the invariant carried from
  point to point is only the core's scoped buffers that are no staging buffer.
-/
import proofs.«138835_g2000102738160024_pallasbulk_449_4_alg».proof.Proof.KiBody
import proofs.«138835_g2000102738160024_pallasbulk_449_4_alg».proof.Proof.LibFrameShared
import proofs.«138835_g2000102738160024_pallasbulk_449_4_alg».proof.Proof.LibQuarterShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the one host operation, which
    recasts the weight matrix into a buffer of its own. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The recast writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (an unfetched
    window's block index has not moved), for any proof data whose array is the region-entry one and whose body
    leaves the block in place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core `c`: the arrays as the region finds them; after the body at point `t`
    each input's buffer at its block and the output's at `outBuf` of the six input blocks; the invariant the scoped
    rest; nothing owed; the input array's four windows at the four quarters of the full share, the others whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBuf (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBuf (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays dealt at the region's entry -/

/-- The distinct buffers behind the windows' arrays, one by one: the input, the recast weights, the bias, the result. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v0) ↦{fullShare} V' main_v0)
          ∗ (((c : Thread nD τ).loc main_arg2) ↦{fullShare} V' main_arg2) ∗ (((c : Thread nD τ).loc main_v1) ↦{fullShare} V' main_v1)) := by
  unfold Pipeline.arrBufs
  exact bigSep_eq_bigSepL_of_eq [main_arg0, main_v0, main_arg2, main_v1] (by decide) (by decide) _

/-- Window `w`'s term of the proof data's arrays, at the region's entry, is its buffer whole at the window's share. -/
theorem arr_term (c : Dev nD) (w : Fin cfg0.W) (q : PosShare TreeShare) (hq : (dats m 0 c).share w = q) :
    (View.loc c.tc (cfg0.win w).arr.view ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq]; rfl

/-- The buffers behind the arrays, each whole at the full share, make the proof data's arrays at entry: the input's
    buffer is dealt in quarters among its four windows, the other three go to their one window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  dsimp only
  rw [arr_term m c 0 fullShare.left.left rfl, arr_term m c 1 fullShare.left.right rfl, arr_term m c 2 fullShare.right.left rfl,
    arr_term m c 3 fullShare.right.right rfl, arr_term m c 4 fullShare rfl, arr_term m c 5 fullShare rfl, arr_term m c 6 fullShare rfl]
  refine (sep_mono (pointsTo_quarters Finset.univ fullShare (V m c main_arg0)) .rfl).trans ?_
  iintro ⟨⟨Ha, Hb, Hc, Hd⟩, Hv0, H2, Hv1⟩
  isplitl [Ha]; · iexact Ha
  isplitl [Hb]; · iexact Hb
  isplitl [Hc]; · iexact Hc
  isplitl [Hd]; · iexact Hd
  isplitl [Hv0]; · iexact Hv0
  isplitl [H2]; · iexact H2
  iexact Hv1

/-! ## The run and the frame -/

set_option backward.isDefEq.respectTransparency.types false in
/-- For any float values, from any memory with zero counters: every weakly fair execution of the program terminates,
    and every final state has every array of the pipeline at what the write-backs compute from the proof data and every
    other unscoped buffer as the region found it. The invariant is the scoped rest itself, taken and given back as it is. -/
theorem run_main : θ_run defs (onTc (τ := τ) (main (F := F))) ⟨m, fun _ => 0, ρ⟩ (Pipeline.FramePost cfgs (dats m) 0 (V m)) :=
  Pipeline.θ_run_frame_track_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := fun c => BI.Entails.refl _) (hout := fun c => BI.Entails.refl _)

/-- The three arguments end as launched: the input and the bias are arrays of input windows, never written; the weight
    matrix is no window's array (the kernel stages its recast copy) and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 5).trans (((dats m 0 c).arrAt_in 5 rfl _).trans ((A_eq m c 5).trans (V_main_arg2 m c)))⟩) (run_main m ρ)

end Cert.KernelIdeal.Hand

end
-- ==== Proof.LibRowSlabs.lean ====
/-
  Row slabs of a rank-2 buffer.

  A store of an [h, c] block at row offset o into an [n, c] buffer, all columns, puts entry (p, q) of the block at
  entry (o + p, q) of the buffer and leaves the rows outside [o, o + h) as the earlier stores left them. Read on
  the contents a list of stores leaves (the last store first): at a row inside the head store's slab it is the stored
  block there; at a row outside it, what the rest of the list leaves. A buffer filled slab by slab is read back with
  these two steps.
-/
import Idealize.ShloMosaic.Lib.Pipeline.FrameBody
import Idealize.ShloMosaic.Lib.ValueIdx

noncomputable section

namespace Idealize.ShloMosaic.RowSlabs

open Idealize.ShloMosaic Idealize.ShloMosaic.ValueIdx

variable {Val : EltTy → Type} [∀ e, Nonempty (Val e)] {e : EltTy} {n h c : Nat}

/-- The slab of rows [o, o + h), all columns, of an [n, c] buffer. -/
abbrev slab (o : Nat) (inb : ∀ a, (![o, 0] : Fin 2 → Nat) a + (⟨2, ![h, c]⟩ : Shape).size a ≤ (⟨2, ![n, c]⟩ : Shape).size a) :
    Rect (⟨2, ![n, c]⟩ : Shape) :=
  Rect.unit (s := (⟨2, ![n, c]⟩ : Shape)) ![o, 0] (⟨2, ![h, c]⟩ : Shape).size inb

/-- At a row of the head store's slab the contents are the stored block's. -/
theorem canon_hit (o : Nat) (inb : ∀ a, (![o, 0] : Fin 2 → Nat) a + (⟨2, ![h, c]⟩ : Shape).size a ≤ (⟨2, ![n, c]⟩ : Shape).size a)
    (B : (⟨2, ![h, c]⟩ : Shape).Idx → Val e) (L : List (View.Piece Val (⟨2, ![n, c]⟩ : Shape) e))
    (r : Fin n) (q : Fin c) (p : Fin h) (hr : r.val = o + p.val) :
    View.canon ((⟨slab o inb, B⟩ : View.Piece Val (⟨2, ![n, c]⟩ : Shape) e) :: L) (ix2 r q) = B (ix2 p q) := by
  have e : (ix2 r q : (⟨2, ![n, c]⟩ : Shape).Idx) = (slab o inb).emb (ix2 p q) := by
    funext a; apply Fin.ext
    match a with
    | ⟨0, _⟩ => show r.val = o + 1 * p.val; omega
    | ⟨1, _⟩ => show q.val = 0 + 1 * q.val; omega
  rw [e]
  exact View.canon_cons_emb (slab o inb) B L (ix2 p q)

/-- At a row outside the head store's slab the contents are what the earlier stores left. -/
theorem canon_miss (o : Nat) (inb : ∀ a, (![o, 0] : Fin 2 → Nat) a + (⟨2, ![h, c]⟩ : Shape).size a ≤ (⟨2, ![n, c]⟩ : Shape).size a)
    (B : (⟨2, ![h, c]⟩ : Shape).Idx → Val e) (L : List (View.Piece Val (⟨2, ![n, c]⟩ : Shape) e))
    (r : Fin n) (q : Fin c) (hr : r.val < o ∨ o + h ≤ r.val) :
    View.canon ((⟨slab o inb, B⟩ : View.Piece Val (⟨2, ![n, c]⟩ : Shape) e) :: L) (ix2 r q) = View.canon L (ix2 r q) :=
  View.canon_cons_of_not_mem _ L fun hm => by
    have hm' : (ix2 r q : (⟨2, ![n, c]⟩ : Shape).Idx) ∈ (slab o inb).set := hm
    have h1 := (Rect.mem_set_unit (inb := inb)).mp hm' (0 : Fin 2)
    have h0 : o ≤ r.val ∧ r.val < o + h := h1
    omega

end Idealize.ShloMosaic.RowSlabs

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibDense.lean ====
/-
  GENERAL LEMMAS: an affine layer of a multi-layer perceptron, read one output at a time on the extended reals.

  Row `p` of a product of an M×K matrix with a K×N matrix, plus a bias row, depends on row `p` of the left matrix only:
  output `c` is `∑ k, x k · w k c + b c` (`lin`). The positive part (`relu`) and the joining of two rows end to end
  (`cat`) are pointwise in the row as well. The lemmas below read the two spellings of such a layer at an entry
  `(p, c)`: the vector program's (a product into the zero accumulator, the bias a `[1, N]` row broadcast down the rows,
  the positive part against a splat zero) and the host's (a `dot_general`, the bias an `[N]` array broadcast twice,
  the positive part against a broadcast scalar zero). Changes of float format are the identity on the extended reals.
  Also here: two blocks joined side by side read at an entry (`concat_cols_apply`), an `[N]` row broadcast over the rows
  (`rowBias_apply`) and an `[A]` column broadcast over the columns (`colBcast_apply`), each a double `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«138835_g2000102738160024_pallasbulk_449_4_alg».proof.Proof.LibPlainDot
import proofs.«138835_g2000102738160024_pallasbulk_449_4_alg».proof.Proof.LibConcatPair

noncomputable section

open scoped BigOperators

namespace Idealize.ShloMosaic.Dense

open Idealize.ShloMosaic Idealize.ShloMosaic.ValueIdx

/-- One output of an affine map: the row `x` against column `c` of `w`, plus the bias at `c`. -/
def lin {K N : Nat} (x : Fin K → EReal) (w : Fin K → Fin N → EReal) (b : Fin N → EReal) (c : Fin N) : EReal :=
  (∑ k : Fin K, x k * w k c) + b c

/-- The positive part, against the zero word (the same word on both sides: never evaluated). -/
def relu (v : EReal) : EReal := max v (Ideal.ofBits .f32 0x00000000#32)

/-- Two rows of lengths `a` and `b` joined end to end. -/
def cat {a b c : Nat} (hc : c = a + b) (u : Fin a → EReal) (v : Fin b → EReal) (j : Fin c) : EReal :=
  if h : j.val < a then u ⟨j.val, h⟩ else v ⟨j.val - a, by have := j.isLt; omega⟩

variable {M K N : Nat}

/-- Two blocks side by side, read at `(r, j)`: row `r` of the first joined with row `r` of the second. -/
theorem concat_cols_apply {n a b c : Nat} (hc : c = a + b) (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (r : Fin n) (j : Fin c) :
    concatenate ⟨2, ![n, c]⟩ (1 : Fin 2) [⟨⟨2, ![n, a]⟩, x₁⟩, ⟨⟨2, ![n, b]⟩, x₂⟩] h (ix2 r j)
      = cat hc (fun q => x₁ (ix2 r q)) (fun q => x₂ (ix2 r q)) j := by
  unfold cat
  split
  · rename_i hlt
    exact ConcatPair.cols_fst x₁ x₂ h r ⟨j.val, hlt⟩ j.isLt
  · rename_i hge
    have hj := j.isLt
    have hlt : a + (j.val - a) < c := by omega
    have e : j = ⟨a + (j.val - a), hlt⟩ := Fin.ext (by show j.val = a + (j.val - a); omega)
    refine (congrArg (fun q => concatenate ⟨2, ![n, c]⟩ (1 : Fin 2) [⟨⟨2, ![n, a]⟩, x₁⟩, ⟨⟨2, ![n, b]⟩, x₂⟩] h (ix2 r q)) e).trans ?_
    exact ConcatPair.cols_snd x₁ x₂ h r ⟨j.val - a, by omega⟩ hlt

/-! ## The vector program's spelling -/

/-- A product into the zero accumulator plus a `[1, N]` bias row broadcast down the rows. -/
theorem matmul_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    addf (matmul D none l r (constant (F := Ideal) ⟨2, ![M, N]⟩ .f32 0x00000000#32)) (broadcastTo ⟨2, ![M, N]⟩ b hb) (ix2 p c)
      = lin (fun k => l (ix2 p k)) (fun k n => r (ix2 k n)) (fun n => b (ix2 (0 : Fin 1) n)) c := by
  rw [addf_apply, PlainDot.matmul_zero_apply D hD none l r (ix2 p c), broadcastTo_1b_ab_apply b hb p c]
  rfl

/-- The same followed by the positive part against a splat zero. -/
theorem matmul_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    maximumf (addf (matmul D none l r (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p c)
      = relu (lin (fun k => l (ix2 p k)) (fun k n => r (ix2 k n)) (fun n => b (ix2 (0 : Fin 1) n)) c) := by
  rw [maximumf_apply, matmul_bias_apply D hD l r b hb p c]
  rfl

/-! ## The host's spelling -/

/-- An `[N]` bias broadcast to a `[1, N]` row and then down `M` rows reads, at `(p, c)`, the bias at `c`. -/
theorem rowBias_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    broadcastInDim ⟨2, ![M, N]⟩ ![0, 1] h2 (broadcastInDim ⟨2, ![1, N]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => show 0 = if (1 : Nat) = 1 then 0 else p.val; rw [if_pos rfl]
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A column `[A]` broadcast to `[A, 1]` and then over `B` columns reads, at `(e, q)`, the column at `e`. -/
theorem colBcast_apply {α : Type} {A B : Nat} (w : (⟨1, ![A]⟩ : Shape).Idx → α)
    (h1 : (⟨1, ![A]⟩ : Shape).BroadcastsInDim ⟨2, ![A, 1]⟩ ![0]) (h2 : (⟨2, ![A, 1]⟩ : Shape).BroadcastsInDim ⟨2, ![A, B]⟩ ![0, 1])
    (e : Fin A) (q : Fin B) :
    broadcastInDim ⟨2, ![A, B]⟩ ![0, 1] h2 (broadcastInDim ⟨2, ![A, 1]⟩ ![0] h1 w) (ix2 e q) = w (ix1 e) := by
  refine (broadcastInDim_apply _ h2 _ (ix2 e q) (ix2 e (0 : Fin 1)) fun a => ?_).trans
    (broadcastInDim_apply _ h1 w (ix2 e (0 : Fin 1)) (ix1 e) fun a => ?_)
  · match a with
    | ⟨0, _⟩ =>
      show e.val = if A = 1 then 0 else e.val
      split
      · have := e.isLt; omega
      · rfl
    | ⟨1, _⟩ => show 0 = if (1 : Nat) = 1 then 0 else q.val; rw [if_pos rfl]
  · match a with
    | ⟨0, _⟩ =>
      show e.val = if A = 1 then 0 else e.val
      split
      · have := e.isLt; omega
      · rfl

/-- A `dot_general` plus an `[N]` bias broadcast over the rows. -/
theorem hostDot_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    addf (Host.dotGeneral D none l r) (broadcastInDim ⟨2, ![M, N]⟩ ![0, 1] h2 (broadcastInDim ⟨2, ![1, N]⟩ ![1] h1 b)) (ix2 p c)
      = lin (fun k => l (ix2 p k)) (fun k n => r (ix2 k n)) (fun n => b (ix1 n)) c := by
  rw [addf_apply, PlainDot.hostDot_apply D hD none l r (ix2 p c), rowBias_apply b h1 h2 p c]
  rfl

/-- The same followed by the positive part against a broadcast scalar zero. -/
theorem hostDot_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (c : Fin N) :
    maximumf (addf (Host.dotGeneral D none l r) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p c)
      = relu (lin (fun k => l (ix2 p k)) (fun k n => r (ix2 k n)) (fun n => b (ix1 n)) c) := by
  rw [maximumf_apply, hostDot_bias_apply D hD l r b h1 h2 p c,
    broadcastInDim_apply _ h0 _ (ix2 p c) ix0 (fun a => a.elim0)]
  rfl

end Idealize.ShloMosaic.Dense

end
-- ==== Proof.AffineSpec.lean ====
/-
  The function both programs compute, on the extended reals.

  The input x is 8192 by 1024, the weight matrix w 1024 by 1024, the bias b one row of 1024. The result is

      y (r, c) = Σ_k x (r, k) · w (k, c) + b (0, c),        r < 8192, c < 1024, k < 1024:

  row r of the result depends on row r of x alone. Both programs compute it a block of rows at a time (one in blocks
  of 2048 rows filled 512 at a time, the other in blocks of 512), each block a product into a zero accumulator plus the
  bias row; a change of float format is the identity on the extended reals, so the recast operands read as themselves.
  Only commutativity-free reading is needed: the two sides are the same sum, term by term, and no infinity is in the way.
-/
import proofs.«138835_g2000102738160024_pallasbulk_449_4_alg».proof.Proof.LibDense

noncomputable section

namespace Cert.Affine

open Idealize.ShloMosaic Idealize.ShloMosaic.ValueIdx

/-- The whole result, entry by entry. -/
def G (x : (⟨2, ![8192, 1024]⟩ : Shape).Idx → EReal) (w : (⟨2, ![1024, 1024]⟩ : Shape).Idx → EReal)
    (b : (⟨2, ![1, 1024]⟩ : Shape).Idx → EReal) : (⟨2, ![8192, 1024]⟩ : Shape).Idx → EReal :=
  fun i => Dense.lin (fun k => x (ix2 (i 0) k)) (fun k n => w (ix2 k n)) (fun n => b (ix2 (0 : Fin 1) n)) (i 1)

/-- Entry (p, q) of a row block's product plus bias is entry (r, q) of the result, when row p of the block is row r
    of the input and the block's weights and bias are the arrays'. -/
theorem G_block {h : Nat} (x : (⟨2, ![8192, 1024]⟩ : Shape).Idx → EReal) (w : (⟨2, ![1024, 1024]⟩ : Shape).Idx → EReal)
    (b : (⟨2, ![1, 1024]⟩ : Shape).Idx → EReal)
    (xb : (⟨2, ![h, 1024]⟩ : Shape).Idx → EReal) (wb : (⟨2, ![1024, 1024]⟩ : Shape).Idx → EReal) (bb : (⟨2, ![1, 1024]⟩ : Shape).Idx → EReal)
    (r : Fin 8192) (p : Fin h) (q : Fin 1024)
    (hx : ∀ k, xb (ix2 p k) = x (ix2 r k)) (hw : ∀ k n, wb (ix2 k n) = w (ix2 k n)) (hb : ∀ n, bb (ix2 (0 : Fin 1) n) = b (ix2 (0 : Fin 1) n)) :
    Dense.lin (fun k => xb (ix2 p k)) (fun k n => wb (ix2 k n)) (fun n => bb (ix2 (0 : Fin 1) n)) q = G x w b (ix2 r q) := by
  show Dense.lin _ _ _ q = Dense.lin (fun k => x (ix2 r k)) (fun k n => w (ix2 k n)) (fun n => b (ix2 (0 : Fin 1) n)) q
  rw [funext hx, funext fun k => funext (hw k), funext hb]

end Cert.Affine

end
-- ==== Proof.KiValue.lean ====
/-
  The value of the kernel's run on the extended reals: the result array ends at the affine map of the arguments.

  Point t of the grid writes back rows [2048·t, 2048·t + 2048) of the result. Row 512·j + p of that block, j < 4,
  was stored from row p of the j-th input block the point fetched, which is row 2048·t + 512·j + p of the input:
  the same row of the result. The weights the point reads are the recast copy, which on the extended reals is the
  weight matrix itself. The four points' blocks tile the 8192 rows.
-/
import proofs.«138835_g2000102738160024_pallasbulk_449_4_alg».proof.Proof.KiRun
import proofs.«138835_g2000102738160024_pallasbulk_449_4_alg».proof.Proof.LibRowSlabs
import proofs.«138835_g2000102738160024_pallasbulk_449_4_alg».proof.Proof.AffineSpec
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## One stored block at an entry -/

theorem pay2_apply (w : Vec Ideal S1024x1024 .bf16) (b : Vec Ideal S1x1024 .f32) (x : Vec Ideal S512x1024 .f32) (p : Fin 512) (q : Fin 1024) :
    k0_pay2 w b x (ix2 p q) = Dense.lin (fun k => x (ix2 p k)) (fun k n => w (ix2 k n)) (fun n => b (ix2 (0 : Fin 1) n)) q := by
  show addf (matmul dot_S512x1024_S1024x1024_S512x1024_1_0_0_1_n_n none (truncf .bf16 x bitsLt_bf16_f32)
      (shapeCast S1024x1024 w shapeCasts_S1024x1024_S1024x1024) (constant (F := Ideal) S512x1024 .f32 0x00000000#32))
    (broadcastTo S512x1024 b broadcasts_S1x1024_S512x1024) (ix2 p q) = _
  refine (Dense.matmul_bias_apply dot_S512x1024_S1024x1024_S512x1024_1_0_0_1_n_n rfl _ _ b broadcasts_S1x1024_S512x1024 p q).trans ?_
  rw [shapeCast_self]; rfl

theorem pay3_apply (w : Vec Ideal S1024x1024 .bf16) (b : Vec Ideal S1x1024 .f32) (x : Vec Ideal S512x1024 .f32) (p : Fin 512) (q : Fin 1024) :
    k0_pay3 w b x (ix2 p q) = Dense.lin (fun k => x (ix2 p k)) (fun k n => w (ix2 k n)) (fun n => b (ix2 (0 : Fin 1) n)) q := by
  show addf (matmul dot_S512x1024_S1024x1024_S512x1024_1_0_0_1_n_n none (truncf .bf16 x bitsLt_bf16_f32)
      (shapeCast S1024x1024 w shapeCasts_S1024x1024_S1024x1024) (constant (F := Ideal) S512x1024 .f32 0x00000000#32))
    (broadcastTo S512x1024 b broadcasts_S1x1024_S512x1024) (ix2 p q) = _
  refine (Dense.matmul_bias_apply dot_S512x1024_S1024x1024_S512x1024_1_0_0_1_n_n rfl _ _ b broadcasts_S1x1024_S512x1024 p q).trans ?_
  rw [shapeCast_self]; rfl

theorem pay4_apply (w : Vec Ideal S1024x1024 .bf16) (b : Vec Ideal S1x1024 .f32) (x : Vec Ideal S512x1024 .f32) (p : Fin 512) (q : Fin 1024) :
    k0_pay4 w b x (ix2 p q) = Dense.lin (fun k => x (ix2 p k)) (fun k n => w (ix2 k n)) (fun n => b (ix2 (0 : Fin 1) n)) q := by
  show addf (matmul dot_S512x1024_S1024x1024_S512x1024_1_0_0_1_n_n none (truncf .bf16 x bitsLt_bf16_f32)
      (shapeCast S1024x1024 w shapeCasts_S1024x1024_S1024x1024) (constant (F := Ideal) S512x1024 .f32 0x00000000#32))
    (broadcastTo S512x1024 b broadcasts_S1x1024_S512x1024) (ix2 p q) = _
  refine (Dense.matmul_bias_apply dot_S512x1024_S1024x1024_S512x1024_1_0_0_1_n_n rfl _ _ b broadcasts_S1x1024_S512x1024 p q).trans ?_
  rw [shapeCast_self]; rfl

theorem pay5_apply (w : Vec Ideal S1024x1024 .bf16) (b : Vec Ideal S1x1024 .f32) (x : Vec Ideal S512x1024 .f32) (p : Fin 512) (q : Fin 1024) :
    k0_pay5 w b x (ix2 p q) = Dense.lin (fun k => x (ix2 p k)) (fun k n => w (ix2 k n)) (fun n => b (ix2 (0 : Fin 1) n)) q := by
  show addf (matmul dot_S512x1024_S1024x1024_S512x1024_1_0_0_1_n_n none (truncf .bf16 x bitsLt_bf16_f32)
      (shapeCast S1024x1024 w shapeCasts_S1024x1024_S1024x1024) (constant (F := Ideal) S512x1024 .f32 0x00000000#32))
    (broadcastTo S512x1024 b broadcasts_S1x1024_S512x1024) (ix2 p q) = _
  refine (Dense.matmul_bias_apply dot_S512x1024_S1024x1024_S512x1024_1_0_0_1_n_n rfl _ _ b broadcasts_S1x1024_S512x1024 p q).trans ?_
  rw [shapeCast_self]; rfl

/-! ## The index maps over the grid -/

theorem hz : (![0, 0] : Fin 2 → Nat) = fun _ => 0 := funext fun a => by fin_cases a <;> rfl

/-- The printed index maps, decided over the four points: input window j reads block 4·t + j of 512 rows, the weights
    and the bias their one block, the result block t of 2048 rows. -/
theorem idx_facts : ∀ t : Fin cfg0.N,
    win0_0.index t (0 : Fin 2) = 4 * t.val + 0 ∧ win0_0.index t (1 : Fin 2) = 0
    ∧ win0_1.index t (0 : Fin 2) = 4 * t.val + 1 ∧ win0_1.index t (1 : Fin 2) = 0
    ∧ win0_2.index t (0 : Fin 2) = 4 * t.val + 2 ∧ win0_2.index t (1 : Fin 2) = 0
    ∧ win0_3.index t (0 : Fin 2) = 4 * t.val + 3 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The blocks a point reads, entry by entry -/

theorem iblk0_apply (c : Dev nD) (t : Fin cfg0.N) (p : Fin 512) (k : Fin 1024) (R : Fin 8192) (hR : R.val = 2048 * t.val + 0 + p.val) :
    iblk m c 0 t (ix2 p k) = V m c main_arg0 (ix2 R k) := by
  obtain ⟨e00, e01, e10, e11, e20, e21, e30, e31, e40, e41, e50, e51, e60, e61⟩ := idx_facts t
  show V m c main_arg0 (((cfg0.win 0).blk t).view.emb (ix2 p k)) = V m c main_arg0 (ix2 R k)
  refine congrArg _ ?_
  funext a; apply Fin.ext
  match a with
  | ⟨0, _⟩ => show win0_0.index t (0 : Fin 2) * 512 + 1 * p.val = R.val; omega
  | ⟨1, _⟩ => show win0_0.index t (1 : Fin 2) * 1024 + 1 * k.val = k.val; omega

theorem iblk1_apply (c : Dev nD) (t : Fin cfg0.N) (p : Fin 512) (k : Fin 1024) (R : Fin 8192) (hR : R.val = 2048 * t.val + 512 + p.val) :
    iblk m c 1 t (ix2 p k) = V m c main_arg0 (ix2 R k) := by
  obtain ⟨e00, e01, e10, e11, e20, e21, e30, e31, e40, e41, e50, e51, e60, e61⟩ := idx_facts t
  show V m c main_arg0 (((cfg0.win 1).blk t).view.emb (ix2 p k)) = V m c main_arg0 (ix2 R k)
  refine congrArg _ ?_
  funext a; apply Fin.ext
  match a with
  | ⟨0, _⟩ => show win0_1.index t (0 : Fin 2) * 512 + 1 * p.val = R.val; omega
  | ⟨1, _⟩ => show win0_1.index t (1 : Fin 2) * 1024 + 1 * k.val = k.val; omega

theorem iblk2_apply (c : Dev nD) (t : Fin cfg0.N) (p : Fin 512) (k : Fin 1024) (R : Fin 8192) (hR : R.val = 2048 * t.val + 1024 + p.val) :
    iblk m c 2 t (ix2 p k) = V m c main_arg0 (ix2 R k) := by
  obtain ⟨e00, e01, e10, e11, e20, e21, e30, e31, e40, e41, e50, e51, e60, e61⟩ := idx_facts t
  show V m c main_arg0 (((cfg0.win 2).blk t).view.emb (ix2 p k)) = V m c main_arg0 (ix2 R k)
  refine congrArg _ ?_
  funext a; apply Fin.ext
  match a with
  | ⟨0, _⟩ => show win0_2.index t (0 : Fin 2) * 512 + 1 * p.val = R.val; omega
  | ⟨1, _⟩ => show win0_2.index t (1 : Fin 2) * 1024 + 1 * k.val = k.val; omega

theorem iblk3_apply (c : Dev nD) (t : Fin cfg0.N) (p : Fin 512) (k : Fin 1024) (R : Fin 8192) (hR : R.val = 2048 * t.val + 1536 + p.val) :
    iblk m c 3 t (ix2 p k) = V m c main_arg0 (ix2 R k) := by
  obtain ⟨e00, e01, e10, e11, e20, e21, e30, e31, e40, e41, e50, e51, e60, e61⟩ := idx_facts t
  show V m c main_arg0 (((cfg0.win 3).blk t).view.emb (ix2 p k)) = V m c main_arg0 (ix2 R k)
  refine congrArg _ ?_
  funext a; apply Fin.ext
  match a with
  | ⟨0, _⟩ => show win0_3.index t (0 : Fin 2) * 512 + 1 * p.val = R.val; omega
  | ⟨1, _⟩ => show win0_3.index t (1 : Fin 2) * 1024 + 1 * k.val = k.val; omega

theorem iblk4_apply (c : Dev nD) (t : Fin cfg0.N) (k n : Fin 1024) : iblk m c 4 t (ix2 k n) = V m c main_v0 (ix2 k n) := by
  obtain ⟨e00, e01, e10, e11, e20, e21, e30, e31, e40, e41, e50, e51, e60, e61⟩ := idx_facts t
  show V m c main_v0 (((cfg0.win 4).blk t).view.emb (ix2 k n)) = V m c main_v0 (ix2 k n)
  refine congrArg _ ?_
  funext a; apply Fin.ext
  match a with
  | ⟨0, _⟩ => show win0_4.index t (0 : Fin 2) * 1024 + 1 * k.val = k.val; omega
  | ⟨1, _⟩ => show win0_4.index t (1 : Fin 2) * 1024 + 1 * n.val = n.val; omega

theorem iblk5_apply (c : Dev nD) (t : Fin cfg0.N) (n : Fin 1024) :
    iblk m c 5 t (ix2 (0 : Fin 1) n) = V m c main_arg2 (ix2 (0 : Fin 1) n) := by
  obtain ⟨e00, e01, e10, e11, e20, e21, e30, e31, e40, e41, e50, e51, e60, e61⟩ := idx_facts t
  show V m c main_arg2 (((cfg0.win 5).blk t).view.emb (ix2 (0 : Fin 1) n)) = V m c main_arg2 (ix2 (0 : Fin 1) n)
  refine congrArg _ ?_
  funext a; apply Fin.ext
  match a with
  | ⟨0, _⟩ => show win0_5.index t (0 : Fin 2) * 1 + 1 * 0 = 0; omega
  | ⟨1, _⟩ => show win0_5.index t (1 : Fin 2) * 1024 + 1 * n.val = n.val; omega

/-- The recast weights, on the extended reals, are the weight matrix as launched. -/
theorem V_main_v0 (c : Dev nD) : (V m c main_v0 : S1024x1024.Idx → EReal) = m ((c : Thread nD τ).loc main_arg1) := by
  dsimp only [V, hostOps0]; after_results; rfl

/-! ## What a point writes back -/

/-- Point `t` writes back block `t` of the affine map of the arrays as the region finds them. -/
theorem flushed_eq (c : Dev nD) (t : Fin cfg0.N) :
    (dats m 0 c).flushed 6 t
      = ((cfg0.win 6).blk t).view.read (Elt Ideal) (Affine.G (V m c main_arg0) (V m c main_v0) (V m c main_arg2)) := by
  show (cfg0.win 6).cut (grid0.coords t) ((dats m 0 c).after 6 t) = _
  rw [after_6]
  funext j
  obtain ⟨r, q, rfl⟩ : ∃ (r : Fin 2048) (q : Fin 1024), j = ix2 r q := ⟨j 0, j 1, eq_ix2 j⟩
  have ht : t.val < 4 := Nat.lt_of_lt_of_eq t.isLt N_0
  have hr : r.val < 2048 := r.isLt
  obtain ⟨e00, e01, e10, e11, e20, e21, e30, e31, e40, e41, e50, e51, e60, e61⟩ := idx_facts t
  have hemb : ((cfg0.win 6).blk t).view.emb (ix2 r q) = (ix2 (⟨2048 * t.val + r.val, by omega⟩ : Fin 8192) q : S8192x1024.Idx) := by
    funext a; apply Fin.ext
    match a with
    | ⟨0, _⟩ => show win0_6.index t (0 : Fin 2) * 2048 + 1 * r.val = 2048 * t.val + r.val; omega
    | ⟨1, _⟩ => show win0_6.index t (1 : Fin 2) * 1024 + 1 * q.val = q.val; omega
  show outBuf (iblk m c 0 t) (iblk m c 1 t) (iblk m c 2 t) (iblk m c 3 t) (iblk m c 4 t) (iblk m c 5 t) (ix2 r q)
    = Affine.G (V m c main_arg0) (V m c main_v0) (V m c main_arg2) (((cfg0.win 6).blk t).view.emb (ix2 r q))
  rw [hemb]
  unfold outBuf
  simp only [View.ld_unit_zero (S := S512x1024) hz, View.ld_unit_zero (S := S1024x1024) hz, View.ld_unit_zero (S := S1x1024) hz]
  by_cases h3 : 1536 ≤ r.val
  ·
    refine (RowSlabs.canon_hit (n := 2048) (h := 512) (c := 1024) 1536 inb_S2048x1024_S512x1024_1536_0 _ _ r q ⟨r.val - 1536, by omega⟩ (by show r.val = 1536 + (r.val - 1536); omega)).trans ?_
    refine (pay5_apply _ _ _ _ q).trans ?_
    exact Affine.G_block _ _ _ _ _ _ ⟨2048 * t.val + r.val, by omega⟩ _ q
      (fun k => iblk3_apply m c t _ k _ (by show 2048 * t.val + r.val = 2048 * t.val + 1536 + (r.val - 1536); omega))
      (iblk4_apply m c t) (iblk5_apply m c t)
  by_cases h2 : 1024 ≤ r.val
  ·
    refine (RowSlabs.canon_miss (n := 2048) (h := 512) (c := 1024) 1536 inb_S2048x1024_S512x1024_1536_0 _ _ r q (Or.inl (by omega))).trans ?_
    refine (RowSlabs.canon_hit (n := 2048) (h := 512) (c := 1024) 1024 inb_S2048x1024_S512x1024_1024_0 _ _ r q ⟨r.val - 1024, by omega⟩ (by show r.val = 1024 + (r.val - 1024); omega)).trans ?_
    refine (pay4_apply _ _ _ _ q).trans ?_
    exact Affine.G_block _ _ _ _ _ _ ⟨2048 * t.val + r.val, by omega⟩ _ q
      (fun k => iblk2_apply m c t _ k _ (by show 2048 * t.val + r.val = 2048 * t.val + 1024 + (r.val - 1024); omega))
      (iblk4_apply m c t) (iblk5_apply m c t)
  by_cases h1 : 512 ≤ r.val
  ·
    refine (RowSlabs.canon_miss (n := 2048) (h := 512) (c := 1024) 1536 inb_S2048x1024_S512x1024_1536_0 _ _ r q (Or.inl (by omega))).trans ?_
    refine (RowSlabs.canon_miss (n := 2048) (h := 512) (c := 1024) 1024 inb_S2048x1024_S512x1024_1024_0 _ _ r q (Or.inl (by omega))).trans ?_
    refine (RowSlabs.canon_hit (n := 2048) (h := 512) (c := 1024) 512 inb_S2048x1024_S512x1024_512_0 _ _ r q ⟨r.val - 512, by omega⟩ (by show r.val = 512 + (r.val - 512); omega)).trans ?_
    refine (pay3_apply _ _ _ _ q).trans ?_
    exact Affine.G_block _ _ _ _ _ _ ⟨2048 * t.val + r.val, by omega⟩ _ q
      (fun k => iblk1_apply m c t _ k _ (by show 2048 * t.val + r.val = 2048 * t.val + 512 + (r.val - 512); omega))
      (iblk4_apply m c t) (iblk5_apply m c t)
  ·
    refine (RowSlabs.canon_miss (n := 2048) (h := 512) (c := 1024) 1536 inb_S2048x1024_S512x1024_1536_0 _ _ r q (Or.inl (by omega))).trans ?_
    refine (RowSlabs.canon_miss (n := 2048) (h := 512) (c := 1024) 1024 inb_S2048x1024_S512x1024_1024_0 _ _ r q (Or.inl (by omega))).trans ?_
    refine (RowSlabs.canon_miss (n := 2048) (h := 512) (c := 1024) 512 inb_S2048x1024_S512x1024_512_0 _ _ r q (Or.inl (by omega))).trans ?_
    refine (RowSlabs.canon_hit (n := 2048) (h := 512) (c := 1024) 0 inb_S2048x1024_S512x1024_0_0 _ _ r q ⟨r.val - 0, by omega⟩ (by show r.val = 0 + (r.val - 0); omega)).trans ?_
    refine (pay2_apply _ _ _ _ q).trans ?_
    exact Affine.G_block _ _ _ _ _ _ ⟨2048 * t.val + r.val, by omega⟩ _ q
      (fun k => iblk0_apply m c t _ k _ (by show 2048 * t.val + r.val = 2048 * t.val + 0 + (r.val - 0); omega))
      (iblk4_apply m c t) (iblk5_apply m c t)

/-! ## The blocks tile the result -/

theorem mem_blk (t : Fin cfg0.N) (i : S8192x1024.Idx) :
    i ∈ ((cfg0.win 6).blk t).view.set ↔ ∀ a : Fin 2, win0_6.index t a * S2048x1024.size a ≤ (i a).val ∧ (i a).val < win0_6.index t a * S2048x1024.size a + S2048x1024.size a := by
  show i ∈ ((View.whole main_v1).slice (win0_6.rect t)).set ↔ _
  rw [View.set_slice_whole, Rect.mem_set_unit]
  exact Iff.rfl

/-- Row r of the result is in the block of point r / 2048. -/
theorem cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 4 := N_0
  obtain ⟨t, htv⟩ : ∃ t : Fin cfg0.N, t.val = (i 0).val / 2048 := ⟨⟨(i 0).val / 2048, by rw [hN]; omega⟩, rfl⟩
  obtain ⟨e00, e01, e10, e11, e20, e21, e30, e31, e40, e41, e50, e51, e60, e61⟩ := idx_facts t
  refine ⟨t, flush0_6 t, ?_⟩
  rw [mem_blk]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 1024 ≤ (i 1).val ∧ (i 1).val < win0_6.index t (1 : Fin 2) * 1024 + 1024; omega

/-! ## The result array after the run -/

/-- After the last write-back the result array is the affine map of the three arguments as launched. -/
theorem final (c : Dev nD) :
    (dats m 0 c).arrAt 6 cfg0.N
      = Affine.G (m ((c : Thread nD τ).loc main_arg0)) (m ((c : Thread nD τ).loc main_arg1)) (m ((c : Thread nD τ).loc main_arg2)) := by
  have h := (dats m 0 c).arrAt_eq_of_cover 6 (Affine.G (V m c main_arg0) (V m c main_v0) (V m c main_arg2))
    (fun t _ => flushed_eq m c t) cover
  rw [V_main_arg0, V_main_v0, V_main_arg2] at h
  exact h

/-- The run: the result at the affine map of the arguments, the arguments unchanged. -/
theorem run : θ_run defs (onTc (τ := τ) (main (F := Ideal))) ⟨m, fun _ => 0, ρ⟩ fun r => ∀ c : Dev nD,
      r.2.mem ((c : Thread nD τ).loc main_v1)
        = Affine.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 6).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 5).trans (((dats m 0 c).arrAt_in 5 rfl _).trans ((A_eq m c 5).trans (V_main_arg2 m c)))⟩) (run_main m ρ)

end Cert.KernelIdeal.Hand

end
-- ==== Proof.RefBlocks.lean ====
/-
  The value of the reference's run on the extended reals: the result array ends at the affine map of the arguments.

  The reference runs the same product plus bias in sixteen blocks of 512 rows: point t reads rows
  [512·t, 512·t + 512) of the input, the whole weight matrix and the bias row, and writes back the same rows of the
  result. Row p of a block is row 512·t + p of the input and of the result; the sixteen blocks tile the 8192 rows.
-/
import proofs.«138835_g2000102738160024_pallasbulk_449_4_alg».proof.Proof.Gen.ReferenceIdeal.Value
import proofs.«138835_g2000102738160024_pallasbulk_449_4_alg».proof.Proof.AffineSpec
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The stored block at an entry: the product into the zero accumulator plus the bias row. -/
theorem pay_apply (x : Vec Ideal S512x1024 .f32) (w : Vec Ideal S1024x1024 .f32) (b : Vec Ideal S1x1024 .f32) (p : Fin 512) (q : Fin 1024) :
    k0_pay1 x w b (ix2 p q) = Dense.lin (fun k => x (ix2 p k)) (fun k n => w (ix2 k n)) (fun n => b (ix2 (0 : Fin 1) n)) q := by
  show addf (matmul dot_S512x1024_S1024x1024_S512x1024_1_0_0_1_n_n none x w (constant (F := Ideal) S512x1024 .f32 0x00000000#32))
    (broadcastTo S512x1024 b broadcasts_S1x1024_S512x1024) (ix2 p q) = _
  exact Dense.matmul_bias_apply dot_S512x1024_S1024x1024_S512x1024_1_0_0_1_n_n rfl x w b broadcasts_S1x1024_S512x1024 p q

theorem hz : (![0, 0] : Fin 2 → Nat) = fun _ => 0 := funext fun a => by fin_cases a <;> rfl

/-- The printed index maps, decided over the sixteen points: the input and the result move by block t of 512 rows, the
    weights and the bias stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem iblk0_apply (c : Dev nD) (t : Fin cfg0.N) (p : Fin 512) (k : Fin 1024) (R : Fin 8192) (hR : R.val = 512 * t.val + p.val) :
    iblk m c 0 t (ix2 p k) = V m c main_arg0 (ix2 R k) := by
  obtain ⟨e00, e01, e10, e11, e20, e21, e30, e31⟩ := idx_facts t
  show V m c main_arg0 (((cfg0.win 0).blk t).view.emb (ix2 p k)) = V m c main_arg0 (ix2 R k)
  refine congrArg _ ?_
  funext a; apply Fin.ext
  match a with
  | ⟨0, _⟩ => show win0_0.index t (0 : Fin 2) * 512 + 1 * p.val = R.val; omega
  | ⟨1, _⟩ => show win0_0.index t (1 : Fin 2) * 1024 + 1 * k.val = k.val; omega

theorem iblk1_apply (c : Dev nD) (t : Fin cfg0.N) (k n : Fin 1024) : iblk m c 1 t (ix2 k n) = V m c main_arg1 (ix2 k n) := by
  obtain ⟨e00, e01, e10, e11, e20, e21, e30, e31⟩ := idx_facts t
  show V m c main_arg1 (((cfg0.win 1).blk t).view.emb (ix2 k n)) = V m c main_arg1 (ix2 k n)
  refine congrArg _ ?_
  funext a; apply Fin.ext
  match a with
  | ⟨0, _⟩ => show win0_1.index t (0 : Fin 2) * 1024 + 1 * k.val = k.val; omega
  | ⟨1, _⟩ => show win0_1.index t (1 : Fin 2) * 1024 + 1 * n.val = n.val; omega

theorem iblk2_apply (c : Dev nD) (t : Fin cfg0.N) (n : Fin 1024) :
    iblk m c 2 t (ix2 (0 : Fin 1) n) = V m c main_arg2 (ix2 (0 : Fin 1) n) := by
  obtain ⟨e00, e01, e10, e11, e20, e21, e30, e31⟩ := idx_facts t
  show V m c main_arg2 (((cfg0.win 2).blk t).view.emb (ix2 (0 : Fin 1) n)) = V m c main_arg2 (ix2 (0 : Fin 1) n)
  refine congrArg _ ?_
  funext a; apply Fin.ext
  match a with
  | ⟨0, _⟩ => show win0_2.index t (0 : Fin 2) * 1 + 1 * 0 = 0; omega
  | ⟨1, _⟩ => show win0_2.index t (1 : Fin 2) * 1024 + 1 * n.val = n.val; omega

/-- Point `t` writes back block `t` of the affine map of the arguments. -/
theorem flushed_eq (c : Dev nD) (t : Fin cfg0.N) :
    (dats m 0 c).flushed 3 t
      = ((cfg0.win 3).blk t).view.read (Elt Ideal) (Affine.G (V m c main_arg0) (V m c main_arg1) (V m c main_arg2)) := by
  rw [Value.flushed3]
  funext j
  obtain ⟨p, q, rfl⟩ : ∃ (p : Fin 512) (q : Fin 1024), j = ix2 p q := ⟨j 0, j 1, eq_ix2 j⟩
  have ht : t.val < 16 := Nat.lt_of_lt_of_eq t.isLt N_0
  have hp : p.val < 512 := p.isLt
  obtain ⟨e00, e01, e10, e11, e20, e21, e30, e31⟩ := idx_facts t
  have hemb : ((cfg0.win 3).blk t).view.emb (ix2 p q) = (ix2 (⟨512 * t.val + p.val, by omega⟩ : Fin 8192) q : S8192x1024.Idx) := by
    funext a; apply Fin.ext
    match a with
    | ⟨0, _⟩ => show win0_3.index t (0 : Fin 2) * 512 + 1 * p.val = 512 * t.val + p.val; omega
    | ⟨1, _⟩ => show win0_3.index t (1 : Fin 2) * 1024 + 1 * q.val = q.val; omega
  show out0_3 (iblk m c 0 t) (iblk m c 1 t) (iblk m c 2 t) (ix2 p q)
    = Affine.G (V m c main_arg0) (V m c main_arg1) (V m c main_arg2) (((cfg0.win 3).blk t).view.emb (ix2 p q))
  rw [hemb]
  unfold out0_3
  rw [View.canon_unit_zero hz]
  simp only [View.ld_unit_zero (S := S512x1024) hz, View.ld_unit_zero (S := S1024x1024) hz, View.ld_unit_zero (S := S1x1024) hz]
  refine (pay_apply _ _ _ p q).trans ?_
  exact Affine.G_block _ _ _ _ _ _ ⟨512 * t.val + p.val, by omega⟩ p q
    (fun k => iblk0_apply m c t p k _ rfl) (iblk1_apply m c t) (iblk2_apply m c t)

theorem mem_blk (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

/-- Row r of the result is in the block of point r / 512. -/
theorem cover (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  obtain ⟨t, htv⟩ : ∃ t : Fin cfg0.N, t.val = (i 0).val / 512 := ⟨⟨(i 0).val / 512, by rw [hN]; omega⟩, rfl⟩
  obtain ⟨e00, e01, e10, e11, e20, e21, e30, e31⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After the last write-back the result array is the affine map of the three arguments as launched. -/
theorem final (c : Dev nD) :
    (dats m 0 c).arrAt 3 cfg0.N
      = Affine.G (m ((c : Thread nD τ).loc main_arg0)) (m ((c : Thread nD τ).loc main_arg1)) (m ((c : Thread nD τ).loc main_arg2)) :=
  (dats m 0 c).arrAt_eq_of_cover 3 (Affine.G (V m c main_arg0) (V m c main_arg1) (V m c main_arg2))
    (fun t _ => flushed_eq m c t) cover

/-- The run: the result at the affine map of the arguments, the arguments unchanged. -/
theorem run : θ_run defs (onTc (τ := τ) (main (F := Ideal))) ⟨m, fun _ => 0, ρ⟩ fun r => ∀ c : Dev nD,
      r.2.mem ((c : Thread nD τ).loc main_v0)
        = Affine.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.ReferenceIdeal.RefValue

end
-- ==== Proof.lean ====
/-
  A fused affine layer, y = x · w + b, computed two ways.

  Both programs are one pipelined kernel launch over row blocks of the input x (8192 rows of 1024). One reads, at
  each of 4 grid points, four consecutive 512-row blocks of x through four windows on the one array, multiplies each
  by the weight matrix recast to a narrower float format beforehand, adds the bias row and fills a 2048-row block of
  the result 512 rows at a time. The other reads one 512-row block at each of 16 points and does the same product and
  sum once. On the extended reals, where a change of float format is the identity and the matrix unit's product into a
  zero accumulator is the plain sum over the contracted index, both results are

      y (r, c) = Σ_k x (r, k) · w (k, c) + b (0, c)

  entry by entry: the same sum in the same order, so the equality needs no law of the extended reals beyond reading
  both sides, and the inputs' finiteness is not used.

  The three runs: the first program's frame at the word level and at the extended reals is the run of its region with
  the input array dealt in quarter shares among its four windows (the body run symbolically; the arguments are arrays
  of input windows or bypass the region). The second program's frame is its generated one. Nothing was rewritten
  between the first program and its reading on the extended reals, so that conjunct is trivial. For the equality of the
  results each run is read block by block: what a point writes back is a block of y, and the points' blocks tile the
  rows.
-/
import proofs.«138835_g2000102738160024_pallasbulk_449_4_alg».proof.Defs
import proofs.«138835_g2000102738160024_pallasbulk_449_4_alg».proof.Proof.Gen.Kernel
import proofs.«138835_g2000102738160024_pallasbulk_449_4_alg».proof.Proof.Gen.KernelIdeal
import proofs.«138835_g2000102738160024_pallasbulk_449_4_alg».proof.Proof.Gen.ReferenceIdeal
import proofs.«138835_g2000102738160024_pallasbulk_449_4_alg».proof.Proof.Gen.ReferenceIdeal.Frame
import proofs.«138835_g2000102738160024_pallasbulk_449_4_alg».proof.Proof.Gen.Pre_finite_inputs
import proofs.«138835_g2000102738160024_pallasbulk_449_4_alg».proof.Proof.KRun
import proofs.«138835_g2000102738160024_pallasbulk_449_4_alg».proof.Proof.KiValue
import proofs.«138835_g2000102738160024_pallasbulk_449_4_alg».proof.Proof.RefBlocks
import Idealize.ShloMosaic.Adequacy
import Idealize.ShloMosaic.Init

noncomputable section

namespace Cert.Proof

open Idealize.ShloMosaic Idealize.SL.Sem

/-- The first program at the word level runs and leaves its arguments as they were. -/
theorem frame_k : Cert.frame_Kernel := fun m ρ _ => Cert.Kernel.Hand.frame (F := Bits) m ρ

/-- So it does read on the extended reals. -/
theorem frame_ki : Cert.frame_KernelIdeal := fun m ρ _ => Cert.KernelIdeal.Hand.frame (F := Ideal) m ρ

/-- The second program runs and leaves its arguments as they were. -/
theorem frame_ri : Cert.frame_ReferenceIdeal := fun m ρ _ => Cert.ReferenceIdeal.Gen.frame m ρ

/-- No operation of the first program was rewritten for its reading on the extended reals. -/
theorem preserves : Cert.preserves_Kernel_KernelIdeal := trivial

/-- From memories agreeing on the arguments both programs end with the result at the affine map of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
